-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x64x1024x1024 : Shape := ⟨4, ![1, 64, 1024, 1024]⟩
abbrev S_ : Shape := ⟨0, ![]⟩

class Facts : Prop where
  bcast_S_S1x64x1024x1024 : S_.BroadcastsInDim S1x64x1024x1024 (![] : Fin 0 → Fin S1x64x1024x1024.rank)
  reducesTo_S1x64x1024x1024_S_d0_1_2_3 : S1x64x1024x1024.ReducesTo [0, 1, 2, 3] S_
  h_S_ : 0 < S_.numel

variable [Facts]

def fn {F : FTy → Type} [FloatOps F] (main_arg0 : FVec F S1x64x1024x1024 .f32) : IVec S_ 1 :=
  let main_v0 : FVec F S1x64x1024x1024 .f32 := Host.absf main_arg0
  let main_cst : FVec F S_ .f32 := constant S_ .f32 0x7F800000#32
  let main_v1 : FVec F S1x64x1024x1024 .f32 := broadcastInDim S1x64x1024x1024 ![] bcast_S_S1x64x1024x1024 main_cst
  let main_v2 : IVec S1x64x1024x1024 1 := cmpf .olt main_v0 main_v1
  let main_c : IVec S_ 1 := constantI S_ 1 1#1
  let main_v3 : IVec S_ 1 := (fun x v => Host.reduce IntOp.andi x v reducesTo_S1x64x1024x1024_S_d0_1_2_3 h_S_) main_v2 main_c
  main_v3
-- ==== Kernel.lean ====
abbrev S1x64x1024x1024 : Shape := ⟨4, ![1, 64, 1024, 1024]⟩
abbrev S64x1024x1024 : Shape := ⟨3, ![64, 1024, 1024]⟩
abbrev S64x128x8x128x8 : Shape := ⟨5, ![64, 128, 8, 128, 8]⟩
abbrev S64x8x8x128x128 : Shape := ⟨5, ![64, 8, 8, 128, 128]⟩
abbrev S8x8x8x16x128 : Shape := ⟨5, ![8, 8, 8, 16, 128]⟩
abbrev S8x1x1x16x128 : Shape := ⟨5, ![8, 1, 1, 16, 128]⟩
abbrev S8x16x128 : Shape := ⟨3, ![8, 16, 128]⟩

abbrev nBuf : Space → Nat
  | .hbm => 7
  | .vmem => 4
  | .smem => 0
  | _ => 0

abbrev bufTy : (tb : Table) → Fin (tcTables nBuf tb) → BufTy
  | .hbm, ⟨0, _⟩ => ⟨S1x64x1024x1024, .f32⟩
  | .hbm, ⟨1, _⟩ => ⟨S64x1024x1024, .f32⟩
  | .hbm, ⟨2, _⟩ => ⟨S64x128x8x128x8, .f32⟩
  | .hbm, ⟨3, _⟩ => ⟨S64x8x8x128x128, .f32⟩
  | .hbm, ⟨4, _⟩ => ⟨S64x8x8x128x128, .f32⟩
  | .hbm, ⟨5, _⟩ => ⟨S64x128x8x128x8, .f32⟩
  | .hbm, ⟨6, _⟩ => ⟨S64x1024x1024, .f32⟩
  | .local _ .vmem, ⟨0, _⟩ => ⟨S8x8x8x16x128, .f32⟩
  | .local _ .vmem, ⟨1, _⟩ => ⟨S8x8x8x16x128, .f32⟩
  | .local _ .vmem, ⟨2, _⟩ => ⟨S8x8x8x16x128, .f32⟩
  | .local _ .vmem, ⟨3, _⟩ => ⟨S8x8x8x16x128, .f32⟩
  | _, _ => ⟨S1x64x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 8], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, arg1.toNat, c0_i32_1.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, arg1.toNat, c0_i32_1.toNat]

abbrev stage0_0 : Fin 2 → Memref sig .tc .vmem S8x8x8x16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x8x8x16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  shapeCasts_S1x64x1024x1024_S64x1024x1024 : S1x64x1024x1024.ShapeCasts S64x1024x1024
  shapeCasts_S64x1024x1024_S64x128x8x128x8 : S64x1024x1024.ShapeCasts S64x128x8x128x8
  transposes_S64x128x8x128x8_S64x8x8x128x128_0_2_4_1_3 : S64x128x8x128x8.Transposes [0, 2, 4, 1, 3] S64x8x8x128x128
  inb_S8x8x8x16x128_S8x1x1x16x128_0_0_0_0_0 : ∀ a, (![0, 0, 0, 0, 0] : Fin 5 → Nat) a + S8x1x1x16x128.size a ≤ S8x8x8x16x128.size a
  h_S8x1x1x16x128 : 0 < S8x1x1x16x128.numel
  shapeCasts_S8x1x1x16x128_S8x16x128 : S8x1x1x16x128.ShapeCasts S8x16x128
  inb_S8x8x8x16x128_S8x1x1x16x128_0_0_1_0_0 : ∀ a, (![0, 0, 1, 0, 0] : Fin 5 → Nat) a + S8x1x1x16x128.size a ≤ S8x8x8x16x128.size a
  inb_S8x8x8x16x128_S8x1x1x16x128_0_0_2_0_0 : ∀ a, (![0, 0, 2, 0, 0] : Fin 5 → Nat) a + S8x1x1x16x128.size a ≤ S8x8x8x16x128.size a
  inb_S8x8x8x16x128_S8x1x1x16x128_0_0_3_0_0 : ∀ a, (![0, 0, 3, 0, 0] : Fin 5 → Nat) a + S8x1x1x16x128.size a ≤ S8x8x8x16x128.size a
  inb_S8x8x8x16x128_S8x1x1x16x128_0_0_4_0_0 : ∀ a, (![0, 0, 4, 0, 0] : Fin 5 → Nat) a + S8x1x1x16x128.size a ≤ S8x8x8x16x128.size a
  inb_S8x8x8x16x128_S8x1x1x16x128_0_0_5_0_0 : ∀ a, (![0, 0, 5, 0, 0] : Fin 5 → Nat) a + S8x1x1x16x128.size a ≤ S8x8x8x16x128.size a
  inb_S8x8x8x16x128_S8x1x1x16x128_0_0_6_0_0 : ∀ a, (![0, 0, 6, 0, 0] : Fin 5 → Nat) a + S8x1x1x16x128.size a ≤ S8x8x8x16x128.size a
  inb_S8x8x8x16x128_S8x1x1x16x128_0_0_7_0_0 : ∀ a, (![0, 0, 7, 0, 0] : Fin 5 → Nat) a + S8x1x1x16x128.size a ≤ S8x8x8x16x128.size a
  inb_S8x8x8x16x128_S8x1x1x16x128_0_1_0_0_0 : ∀ a, (![0, 1, 0, 0, 0] : Fin 5 → Nat) a + S8x1x1x16x128.size a ≤ S8x8x8x16x128.size a
  inb_S8x8x8x16x128_S8x1x1x16x128_0_1_1_0_0 : ∀ a, (![0, 1, 1, 0, 0] : Fin 5 → Nat) a + S8x1x1x16x128.size a ≤ S8x8x8x16x128.size a
  inb_S8x8x8x16x128_S8x1x1x16x128_0_1_2_0_0 : ∀ a, (![0, 1, 2, 0, 0] : Fin 5 → Nat) a + S8x1x1x16x128.size a ≤ S8x8x8x16x128.size a
  inb_S8x8x8x16x128_S8x1x1x16x128_0_1_3_0_0 : ∀ a, (![0, 1, 3, 0, 0] : Fin 5 → Nat) a + S8x1x1x16x128.size a ≤ S8x8x8x16x128.size a
  inb_S8x8x8x16x128_S8x1x1x16x128_0_1_4_0_0 : ∀ a, (![0, 1, 4, 0, 0] : Fin 5 → Nat) a + S8x1x1x16x128.size a ≤ S8x8x8x16x128.size a
  inb_S8x8x8x16x128_S8x1x1x16x128_0_1_5_0_0 : ∀ a, (![0, 1, 5, 0, 0] : Fin 5 → Nat) a + S8x1x1x16x128.size a ≤ S8x8x8x16x128.size a
  inb_S8x8x8x16x128_S8x1x1x16x128_0_1_6_0_0 : ∀ a, (![0, 1, 6, 0, 0] : Fin 5 → Nat) a + S8x1x1x16x128.size a ≤ S8x8x8x16x128.size a
  inb_S8x8x8x16x128_S8x1x1x16x128_0_1_7_0_0 : ∀ a, (![0, 1, 7, 0, 0] : Fin 5 → Nat) a + S8x1x1x16x128.size a ≤ S8x8x8x16x128.size a
  inb_S8x8x8x16x128_S8x1x1x16x128_0_2_0_0_0 : ∀ a, (![0, 2, 0, 0, 0] : Fin 5 → Nat) a + S8x1x1x16x128.size a ≤ S8x8x8x16x128.size a
  inb_S8x8x8x16x128_S8x1x1x16x128_0_2_1_0_0 : ∀ a, (![0, 2, 1, 0, 0] : Fin 5 → Nat) a + S8x1x1x16x128.size a ≤ S8x8x8x16x128.size a
  inb_S8x8x8x16x128_S8x1x1x16x128_0_2_2_0_0 : ∀ a, (![0, 2, 2, 0, 0] : Fin 5 → Nat) a + S8x1x1x16x128.size a ≤ S8x8x8x16x128.size a
  inb_S8x8x8x16x128_S8x1x1x16x128_0_2_3_0_0 : ∀ a, (![0, 2, 3, 0, 0] : Fin 5 → Nat) a + S8x1x1x16x128.size a ≤ S8x8x8x16x128.size a
  inb_S8x8x8x16x128_S8x1x1x16x128_0_2_4_0_0 : ∀ a, (![0, 2, 4, 0, 0] : Fin 5 → Nat) a + S8x1x1x16x128.size a ≤ S8x8x8x16x128.size a
  inb_S8x8x8x16x128_S8x1x1x16x128_0_2_5_0_0 : ∀ a, (![0, 2, 5, 0, 0] : Fin 5 → Nat) a + S8x1x1x16x128.size a ≤ S8x8x8x16x128.size a
  inb_S8x8x8x16x128_S8x1x1x16x128_0_2_6_0_0 : ∀ a, (![0, 2, 6, 0, 0] : Fin 5 → Nat) a + S8x1x1x16x128.size a ≤ S8x8x8x16x128.size a
  inb_S8x8x8x16x128_S8x1x1x16x128_0_2_7_0_0 : ∀ a, (![0, 2, 7, 0, 0] : Fin 5 → Nat) a + S8x1x1x16x128.size a ≤ S8x8x8x16x128.size a
  inb_S8x8x8x16x128_S8x1x1x16x128_0_3_0_0_0 : ∀ a, (![0, 3, 0, 0, 0] : Fin 5 → Nat) a + S8x1x1x16x128.size a ≤ S8x8x8x16x128.size a
  inb_S8x8x8x16x128_S8x1x1x16x128_0_3_1_0_0 : ∀ a, (![0, 3, 1, 0, 0] : Fin 5 → Nat) a + S8x1x1x16x128.size a ≤ S8x8x8x16x128.size a
  inb_S8x8x8x16x128_S8x1x1x16x128_0_3_2_0_0 : ∀ a, (![0, 3, 2, 0, 0] : Fin 5 → Nat) a + S8x1x1x16x128.size a ≤ S8x8x8x16x128.size a
  inb_S8x8x8x16x128_S8x1x1x16x128_0_3_3_0_0 : ∀ a, (![0, 3, 3, 0, 0] : Fin 5 → Nat) a + S8x1x1x16x128.size a ≤ S8x8x8x16x128.size a
  inb_S8x8x8x16x128_S8x1x1x16x128_0_3_4_0_0 : ∀ a, (![0, 3, 4, 0, 0] : Fin 5 → Nat) a + S8x1x1x16x128.size a ≤ S8x8x8x16x128.size a
  inb_S8x8x8x16x128_S8x1x1x16x128_0_3_5_0_0 : ∀ a, (![0, 3, 5, 0, 0] : Fin 5 → Nat) a + S8x1x1x16x128.size a ≤ S8x8x8x16x128.size a
  inb_S8x8x8x16x128_S8x1x1x16x128_0_3_6_0_0 : ∀ a, (![0, 3, 6, 0, 0] : Fin 5 → Nat) a + S8x1x1x16x128.size a ≤ S8x8x8x16x128.size a
  inb_S8x8x8x16x128_S8x1x1x16x128_0_3_7_0_0 : ∀ a, (![0, 3, 7, 0, 0] : Fin 5 → Nat) a + S8x1x1x16x128.size a ≤ S8x8x8x16x128.size a
  inb_S8x8x8x16x128_S8x1x1x16x128_0_4_0_0_0 : ∀ a, (![0, 4, 0, 0, 0] : Fin 5 → Nat) a + S8x1x1x16x128.size a ≤ S8x8x8x16x128.size a
  inb_S8x8x8x16x128_S8x1x1x16x128_0_4_1_0_0 : ∀ a, (![0, 4, 1, 0, 0] : Fin 5 → Nat) a + S8x1x1x16x128.size a ≤ S8x8x8x16x128.size a
  inb_S8x8x8x16x128_S8x1x1x16x128_0_4_2_0_0 : ∀ a, (![0, 4, 2, 0, 0] : Fin 5 → Nat) a + S8x1x1x16x128.size a ≤ S8x8x8x16x128.size a
  inb_S8x8x8x16x128_S8x1x1x16x128_0_4_3_0_0 : ∀ a, (![0, 4, 3, 0, 0] : Fin 5 → Nat) a + S8x1x1x16x128.size a ≤ S8x8x8x16x128.size a
  inb_S8x8x8x16x128_S8x1x1x16x128_0_4_4_0_0 : ∀ a, (![0, 4, 4, 0, 0] : Fin 5 → Nat) a + S8x1x1x16x128.size a ≤ S8x8x8x16x128.size a
  inb_S8x8x8x16x128_S8x1x1x16x128_0_4_5_0_0 : ∀ a, (![0, 4, 5, 0, 0] : Fin 5 → Nat) a + S8x1x1x16x128.size a ≤ S8x8x8x16x128.size a
  inb_S8x8x8x16x128_S8x1x1x16x128_0_4_6_0_0 : ∀ a, (![0, 4, 6, 0, 0] : Fin 5 → Nat) a + S8x1x1x16x128.size a ≤ S8x8x8x16x128.size a
  inb_S8x8x8x16x128_S8x1x1x16x128_0_4_7_0_0 : ∀ a, (![0, 4, 7, 0, 0] : Fin 5 → Nat) a + S8x1x1x16x128.size a ≤ S8x8x8x16x128.size a
  inb_S8x8x8x16x128_S8x1x1x16x128_0_5_0_0_0 : ∀ a, (![0, 5, 0, 0, 0] : Fin 5 → Nat) a + S8x1x1x16x128.size a ≤ S8x8x8x16x128.size a
  inb_S8x8x8x16x128_S8x1x1x16x128_0_5_1_0_0 : ∀ a, (![0, 5, 1, 0, 0] : Fin 5 → Nat) a + S8x1x1x16x128.size a ≤ S8x8x8x16x128.size a
  inb_S8x8x8x16x128_S8x1x1x16x128_0_5_2_0_0 : ∀ a, (![0, 5, 2, 0, 0] : Fin 5 → Nat) a + S8x1x1x16x128.size a ≤ S8x8x8x16x128.size a
  inb_S8x8x8x16x128_S8x1x1x16x128_0_5_3_0_0 : ∀ a, (![0, 5, 3, 0, 0] : Fin 5 → Nat) a + S8x1x1x16x128.size a ≤ S8x8x8x16x128.size a
  inb_S8x8x8x16x128_S8x1x1x16x128_0_5_4_0_0 : ∀ a, (![0, 5, 4, 0, 0] : Fin 5 → Nat) a + S8x1x1x16x128.size a ≤ S8x8x8x16x128.size a
  inb_S8x8x8x16x128_S8x1x1x16x128_0_5_5_0_0 : ∀ a, (![0, 5, 5, 0, 0] : Fin 5 → Nat) a + S8x1x1x16x128.size a ≤ S8x8x8x16x128.size a
  inb_S8x8x8x16x128_S8x1x1x16x128_0_5_6_0_0 : ∀ a, (![0, 5, 6, 0, 0] : Fin 5 → Nat) a + S8x1x1x16x128.size a ≤ S8x8x8x16x128.size a
  inb_S8x8x8x16x128_S8x1x1x16x128_0_5_7_0_0 : ∀ a, (![0, 5, 7, 0, 0] : Fin 5 → Nat) a + S8x1x1x16x128.size a ≤ S8x8x8x16x128.size a
  inb_S8x8x8x16x128_S8x1x1x16x128_0_6_0_0_0 : ∀ a, (![0, 6, 0, 0, 0] : Fin 5 → Nat) a + S8x1x1x16x128.size a ≤ S8x8x8x16x128.size a
  inb_S8x8x8x16x128_S8x1x1x16x128_0_6_1_0_0 : ∀ a, (![0, 6, 1, 0, 0] : Fin 5 → Nat) a + S8x1x1x16x128.size a ≤ S8x8x8x16x128.size a
  inb_S8x8x8x16x128_S8x1x1x16x128_0_6_2_0_0 : ∀ a, (![0, 6, 2, 0, 0] : Fin 5 → Nat) a + S8x1x1x16x128.size a ≤ S8x8x8x16x128.size a
  inb_S8x8x8x16x128_S8x1x1x16x128_0_6_3_0_0 : ∀ a, (![0, 6, 3, 0, 0] : Fin 5 → Nat) a + S8x1x1x16x128.size a ≤ S8x8x8x16x128.size a
  inb_S8x8x8x16x128_S8x1x1x16x128_0_6_4_0_0 : ∀ a, (![0, 6, 4, 0, 0] : Fin 5 → Nat) a + S8x1x1x16x128.size a ≤ S8x8x8x16x128.size a
  inb_S8x8x8x16x128_S8x1x1x16x128_0_6_5_0_0 : ∀ a, (![0, 6, 5, 0, 0] : Fin 5 → Nat) a + S8x1x1x16x128.size a ≤ S8x8x8x16x128.size a
  inb_S8x8x8x16x128_S8x1x1x16x128_0_6_6_0_0 : ∀ a, (![0, 6, 6, 0, 0] : Fin 5 → Nat) a + S8x1x1x16x128.size a ≤ S8x8x8x16x128.size a
  inb_S8x8x8x16x128_S8x1x1x16x128_0_6_7_0_0 : ∀ a, (![0, 6, 7, 0, 0] : Fin 5 → Nat) a + S8x1x1x16x128.size a ≤ S8x8x8x16x128.size a
  inb_S8x8x8x16x128_S8x1x1x16x128_0_7_0_0_0 : ∀ a, (![0, 7, 0, 0, 0] : Fin 5 → Nat) a + S8x1x1x16x128.size a ≤ S8x8x8x16x128.size a
  inb_S8x8x8x16x128_S8x1x1x16x128_0_7_1_0_0 : ∀ a, (![0, 7, 1, 0, 0] : Fin 5 → Nat) a + S8x1x1x16x128.size a ≤ S8x8x8x16x128.size a
  inb_S8x8x8x16x128_S8x1x1x16x128_0_7_2_0_0 : ∀ a, (![0, 7, 2, 0, 0] : Fin 5 → Nat) a + S8x1x1x16x128.size a ≤ S8x8x8x16x128.size a
  inb_S8x8x8x16x128_S8x1x1x16x128_0_7_3_0_0 : ∀ a, (![0, 7, 3, 0, 0] : Fin 5 → Nat) a + S8x1x1x16x128.size a ≤ S8x8x8x16x128.size a
  inb_S8x8x8x16x128_S8x1x1x16x128_0_7_4_0_0 : ∀ a, (![0, 7, 4, 0, 0] : Fin 5 → Nat) a + S8x1x1x16x128.size a ≤ S8x8x8x16x128.size a
  inb_S8x8x8x16x128_S8x1x1x16x128_0_7_5_0_0 : ∀ a, (![0, 7, 5, 0, 0] : Fin 5 → Nat) a + S8x1x1x16x128.size a ≤ S8x8x8x16x128.size a
  inb_S8x8x8x16x128_S8x1x1x16x128_0_7_6_0_0 : ∀ a, (![0, 7, 6, 0, 0] : Fin 5 → Nat) a + S8x1x1x16x128.size a ≤ S8x8x8x16x128.size a
  inb_S8x8x8x16x128_S8x1x1x16x128_0_7_7_0_0 : ∀ a, (![0, 7, 7, 0, 0] : Fin 5 → Nat) a + S8x1x1x16x128.size a ≤ S8x8x8x16x128.size a
  shapeCasts_S8x16x128_S8x1x1x16x128 : S8x16x128.ShapeCasts S8x1x1x16x128
  transposes_S64x8x8x128x128_S64x128x8x128x8_0_3_1_4_2 : S64x8x8x128x128.Transposes [0, 3, 1, 4, 2] S64x128x8x128x8
  shapeCasts_S64x128x8x128x8_S64x1024x1024 : S64x128x8x128x8.ShapeCasts S64x1024x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x8x8x16x128.size a ≤ S64x8x8x128x128.size a
  hwx0_0 : ∀ i : grid0.Coords, EltTy.bits .f32 = 32 ∨ (Rect.block (s := S64x8x8x128x128) S8x8x8x16x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x8x8x16x128.size a ≤ S64x8x8x128x128.size a
  hwx0_1 : ∀ i : grid0.Coords, EltTy.bits .f32 = 32 ∨ (Rect.block (s := S64x8x8x128x128) S8x8x8x16x128.size (cc0_transform_1 i) (hinb0_1 i)).WholeWords (EltTy.packing .f32)

variable [Facts₀]

abbrev win0_0 : Pipeline.Window sig grid0 :=
  Pipeline.Window.ofSpec (Memref.whole main_v2) S8x8x8x16x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S8x8x8x16x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S1x64x1024x1024 : Shape := ⟨4, ![1, 64, 1024, 1024]⟩
abbrev S64x1024x1024 : Shape := ⟨3, ![64, 1024, 1024]⟩
abbrev S64x128x8x128x8 : Shape := ⟨5, ![64, 128, 8, 128, 8]⟩
abbrev S64x128x128x8x8 : Shape := ⟨5, ![64, 128, 128, 8, 8]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S1x64x1024x1024, .f32⟩
  | .hbm, ⟨1, _⟩ => ⟨S64x1024x1024, .f32⟩
  | .hbm, ⟨2, _⟩ => ⟨S64x128x8x128x8, .f32⟩
  | .hbm, ⟨3, _⟩ => ⟨S64x128x128x8x8, .f32⟩
  | .hbm, ⟨4, _⟩ => ⟨S64x128x128x8x8, .f32⟩
  | .hbm, ⟨5, _⟩ => ⟨S64x128x128x8x8, .f32⟩
  | .hbm, ⟨6, _⟩ => ⟨S64x128x128x8x8, .f32⟩
  | .hbm, ⟨7, _⟩ => ⟨S64x128x128x8x8, .f32⟩
  | .hbm, ⟨8, _⟩ => ⟨S64x128x128x8x8, .f32⟩
  | .hbm, ⟨9, _⟩ => ⟨S64x128x128x8x8, .f32⟩
  | .hbm, ⟨10, _⟩ => ⟨S64x128x128x8x8, .f32⟩
  | .hbm, ⟨11, _⟩ => ⟨S64x128x128x8x8, .f32⟩
  | .hbm, ⟨12, _⟩ => ⟨S64x128x128x8x8, .f32⟩
  | .hbm, ⟨13, _⟩ => ⟨S_, .f32⟩
  | .hbm, ⟨14, _⟩ => ⟨S64x128x128x8x8, .f32⟩
  | .hbm, ⟨15, _⟩ => ⟨S64x128x128x8x8, .f32⟩
  | .hbm, ⟨16, _⟩ => ⟨S64x128x8x128x8, .f32⟩
  | .hbm, ⟨17, _⟩ => ⟨S64x1024x1024, .f32⟩
  | _, _ => ⟨S1x64x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_call0_v0 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]

class Facts₀ : Prop where
  shapeCasts_S1x64x1024x1024_S64x1024x1024 : S1x64x1024x1024.ShapeCasts S64x1024x1024
  shapeCasts_S64x1024x1024_S64x128x8x128x8 : S64x1024x1024.ShapeCasts S64x128x8x128x8
  transposes_S64x128x8x128x8_S64x128x128x8x8_0_1_3_2_4 : S64x128x8x128x8.Transposes [0, 1, 3, 2, 4] S64x128x128x8x8
  transposes_S64x128x128x8x8_S64x128x128x8x8_0_1_2_4_3 : S64x128x128x8x8.Transposes [0, 1, 2, 4, 3] S64x128x128x8x8
  bcast_S_S64x128x128x8x8 : S_.BroadcastsInDim S64x128x128x8x8 (![] : Fin 0 → Fin S64x128x128x8x8.rank)
  transposes_S64x128x128x8x8_S64x128x8x128x8_0_1_3_2_4 : S64x128x128x8x8.Transposes [0, 1, 3, 2, 4] S64x128x8x128x8
  shapeCasts_S64x128x8x128x8_S64x1024x1024 : S64x128x8x128x8.ShapeCasts S64x1024x1024

variable [Facts₀]

class Facts : Prop extends Facts₀ where

variable [Facts]
-- ==== Proof.Dihedral.lean ====
/-
  The mathematics of the certificate, free of both programs.

  The image is cut into 8 × 8 tiles: an index of the tiled array is (channel, tile row, row inside the tile, tile column,
  column inside the tile).  For one tile `w`, the sum of an entry with its three mirror images,
      s i j = ((w i j + w i (7 - j)) + w (7 - i) j) + w (7 - i) (7 - j),
  is unchanged by the left–right mirror flip (`mirrorSum_rev_right`): the same four entries are added, in
  another order, and addition of extended reals is commutative and associative (no finiteness is needed).  The quarter
  turn of `s` reads `s j (7 - i)`, which by that symmetry is `s j i`: rotating the mirror sum is transposing it.  The
  symmetrized tile is `(s i j + s j i) · k`.
-/
import Idealize.ShloMosaic.PureOps.Ideal
import Idealize.ShloMosaic.Lib.ValueIdx

noncomputable section

namespace Cert.Dihedral

open Idealize.ShloMosaic Idealize.ShloMosaic.ValueIdx

/-- The image cut into tiles: (channel, tile row, row in tile, tile column, column in tile). -/
abbrev Tiled : Shape := ⟨5, ![64, 128, 8, 128, 8]⟩

/-- An entry of a tile plus its three mirror images: left–right, up–down, and both. -/
def mirrorSum (w : Fin 8 → Fin 8 → EReal) (i j : Fin 8) : EReal :=
  ((w i j + w i j.rev) + w i.rev j) + w i.rev j.rev

/-- The mirror sum does not change under the left–right flip: the four entries are the same, paired the other way. -/
theorem mirrorSum_rev_right (w : Fin 8 → Fin 8 → EReal) (i j : Fin 8) : mirrorSum w i j.rev = mirrorSum w i j := by
  unfold mirrorSum
  rw [Fin.rev_rev, add_comm (w i j.rev) (w i j), add_assoc (w i j + w i j.rev), add_comm (w i.rev j.rev) (w i.rev j),
    ← add_assoc]

/-- The tile of the tiled array `x` at channel `c`, tile row `hb`, tile column `wb`. -/
def tile (x : Tiled.Idx → EReal) (c : Fin 64) (hb : Fin 128) (wb : Fin 128) : Fin 8 → Fin 8 → EReal :=
  fun a b => x (ix5 c hb a wb b)

/-- The symmetrized entry: the mirror sum at `(i, j)` plus the mirror sum at the transposed place, times `k`. -/
def symmAt (k : EReal) (x : Tiled.Idx → EReal) (c : Fin 64) (hb : Fin 128) (i : Fin 8) (wb : Fin 128) (j : Fin 8) : EReal :=
  (mirrorSum (tile x c hb wb) i j + mirrorSum (tile x c hb wb) j i) * k

/-- The symmetrized tiled array. -/
def symm (k : EReal) (x : Tiled.Idx → EReal) : Tiled.Idx → EReal :=
  fun q => symmAt k x (q 0) (q 1) (q 2) (q 3) (q 4)

/-- The same entry as the reference spells it: the mirror sum plus its quarter turn, which reads the mirror sum at
    `(j, 7 - i)`. -/
theorem symmAt_quarter_turn (k : EReal) (x : Tiled.Idx → EReal) (c : Fin 64) (hb : Fin 128) (i : Fin 8) (wb : Fin 128)
    (j : Fin 8) :
    (mirrorSum (tile x c hb wb) i j + mirrorSum (tile x c hb wb) j i.rev) * k = symmAt k x c hb i wb j := by
  unfold symmAt
  rw [mirrorSum_rev_right]

end Cert.Dihedral

end
-- ==== Proof.BlockValue.lean ====
/-
  What the kernel body leaves in one staged output block, as ONE function of the staged input block.

  A staged block has shape [8, 8, 8, 16, 128]: (channel in block, row in tile `a`, column in tile `b`, tile row in
  block, tile column).  For fixed `(a, b)` the entries form one "phase": the [8, 16, 128] array of the `(a, b)` entries
  of every tile of the block.  The body loads the 64 phases, forms for each `(a, b)` the sum of the phase with its
  three mirror images `(a, 7 - b)`, `(7 - a, b)`, `(7 - a, 7 - b)`, and stores at phase `(a, b)` the mirror sum at
  `(a, b)` plus the mirror sum at `(b, a)`, times 1/8.  So at block index `(p, a, b, h, l)` the output block holds
  `Cert.Dihedral.mirrorSum` of the tile `(a', b') ↦ x (p, a', b', h, l)` at `(a, b)` plus the same at `(b, a)`, times 1/8
  — the same function of the block index for every one of the 64 stores, which is why the 64 stored pieces, tiling the
  block, assemble to that one function.
-/
import proofs.«103583_j644245094889_2_alg».proof.Proof.Gen.KernelIdeal.Frame
import proofs.«103583_j644245094889_2_alg».proof.Proof.Dihedral
import Idealize.ShloMosaic.Lib.ValueIdx
import Idealize.ShloMosaic.Lib.Pipeline.Value

set_option maxRecDepth 16384

noncomputable section

namespace Cert.KernelIdeal.BlockValue

open Idealize.ShloMosaic Idealize.ShloMosaic.ValueIdx Cert.KernelIdeal Cert.KernelIdeal.Gen

/-- The rectangle of phase `(a, b)` inside a staged block: every channel, tile row and tile column, at row `a` and
    column `b` of the tile. -/
abbrev phaseRect (a b : Fin 8) : Rect S8x8x8x16x128 :=
  Rect.unit ![0, a.val, b.val, 0, 0] S8x1x1x16x128.size fun ax => match ax with
    | ⟨0, _⟩ => by show 0 + 8 ≤ 8; omega
    | ⟨1, _⟩ => by have := a.isLt; show a.val + 1 ≤ 8; omega
    | ⟨2, _⟩ => by have := b.isLt; show b.val + 1 ≤ 8; omega
    | ⟨3, _⟩ => by show 0 + 16 ≤ 16; omega
    | ⟨4, _⟩ => by show 0 + 128 ≤ 128; omega

/-- Phase `(a, b)` of the block `x`, with its two unit axes dropped. -/
def phase (x : Vec Ideal S8x8x8x16x128 .f32) (a b : Fin 8) : FVec Ideal S8x16x128 .f32 :=
  shapeCast S8x16x128 (View.ld x (phaseRect a b)) shapeCasts_S8x1x1x16x128_S8x16x128

/-- A phase read at an index is the block at that phase's place. -/
theorem phase_apply (x : Vec Ideal S8x8x8x16x128 .f32) (a b : Fin 8) (p : Fin 8) (h : Fin 16) (l : Fin 128) :
    phase x a b (ix3 p h l) = x (ix5 p a b h l) := by
  unfold phase
  refine (shapeCast_apply _ _ (ix3 p h l) (ix5 p (0 : Fin 1) (0 : Fin 1) h l) ?_).trans ?_
  · rw [Shape.rowMajor_val_five, Shape.rowMajor_val_three]
    show (((p.val * 1 + 0) * 1 + 0) * 16 + h.val) * 128 + l.val = (p.val * 16 + h.val) * 128 + l.val
    omega
  · show x ((phaseRect a b).idx (ix5 p (0 : Fin 1) (0 : Fin 1) h l)) = x (ix5 p a b h l)
    refine congrArg x (funext fun ax => Fin.ext ?_)
    match ax with
    | ⟨0, _⟩ => show 0 + 1 * p.val = p.val; omega
    | ⟨1, _⟩ => show a.val + 1 * 0 = a.val; omega
    | ⟨2, _⟩ => show b.val + 1 * 0 = b.val; omega
    | ⟨3, _⟩ => show 0 + 1 * h.val = h.val; omega
    | ⟨4, _⟩ => show 0 + 1 * l.val = l.val; omega

/-- The sum of phase `(a, b)` with its three mirror images, as the body adds them. -/
def mirror4 (x : Vec Ideal S8x8x8x16x128 .f32) (a b : Fin 8) : FVec Ideal S8x16x128 .f32 :=
  addf (addf (addf (phase x a b) (phase x a b.rev)) (phase x a.rev b)) (phase x a.rev b.rev)

/-- What the body stores at phase `(a, b)`. -/
def piece (x : Vec Ideal S8x8x8x16x128 .f32) (a b : Fin 8) : FVec Ideal S8x1x1x16x128 .f32 :=
  shapeCast S8x1x1x16x128
    (mulf (addf (mirror4 x a b) (mirror4 x b a)) (broadcast S8x16x128 (Scalar.ofBits .f32 0x3E000000#32)))
    shapeCasts_S8x16x128_S8x1x1x16x128

/-- The output block as one function of the block index. -/
def blockAt (x : Vec Ideal S8x8x8x16x128 .f32) (p : Fin 8) (a b : Fin 8) (h : Fin 16) (l : Fin 128) : EReal :=
  (Cert.Dihedral.mirrorSum (fun a' b' => x (ix5 p a' b' h l)) a b
    + Cert.Dihedral.mirrorSum (fun a' b' => x (ix5 p a' b' h l)) b a) * Ideal.ofBits .f32 0x3E000000#32

def blockSymm (x : Vec Ideal S8x8x8x16x128 .f32) : S8x8x8x16x128.Idx → EReal :=
  fun y => blockAt x (y 0) (y 1) (y 2) (y 3) (y 4)

/-- Where the phase rectangle puts its own index. -/
theorem phaseRect_emb (a b : Fin 8) (p : Fin 8) (u v : Fin 1) (h : Fin 16) (l : Fin 128) :
    (phaseRect a b).emb (ix5 p u v h l) = ix5 p a b h l := by
  refine funext fun ax => Fin.ext ?_
  have hu := u.isLt
  have hv := v.isLt
  match ax with
  | ⟨0, _⟩ => show 0 + 1 * p.val = p.val; omega
  | ⟨1, _⟩ => show a.val + 1 * u.val = a.val; omega
  | ⟨2, _⟩ => show b.val + 1 * v.val = b.val; omega
  | ⟨3, _⟩ => show 0 + 1 * h.val = h.val; omega
  | ⟨4, _⟩ => show 0 + 1 * l.val = l.val; omega

/-- The piece stored at phase `(a, b)` is the block function at the indices its rectangle names. -/
theorem piece_eq (x : Vec Ideal S8x8x8x16x128 .f32) (a b : Fin 8) (z : (phaseRect a b).shape.Idx) :
    piece x a b z = blockSymm x ((phaseRect a b).emb z) := by
  obtain ⟨p, u, v, h, l, rfl⟩ : ∃ (p : Fin 8) (u v : Fin 1) (h : Fin 16) (l : Fin 128), z = ix5 p u v h l :=
    ⟨z 0, z 1, z 2, z 3, z 4, eq_ix5 z⟩
  rw [phaseRect_emb]
  unfold piece
  refine (shapeCast_apply _ _ (ix5 p u v h l) (ix3 p h l) ?_).trans ?_
  · have hu := u.isLt
    have hv := v.isLt
    rw [Shape.rowMajor_val_five, Shape.rowMajor_val_three]
    show (p.val * 16 + h.val) * 128 + l.val = (((p.val * 1 + u.val) * 1 + v.val) * 16 + h.val) * 128 + l.val
    have hu0 : u.val = 0 := by omega
    have hv0 : v.val = 0 := by omega
    rw [hu0, hv0]
    omega
  · show (mirror4 x a b (ix3 p h l) + mirror4 x b a (ix3 p h l)) * Ideal.ofBits .f32 0x3E000000#32 = blockAt x p a b h l
    unfold mirror4 blockAt Cert.Dihedral.mirrorSum
    simp only [addf_apply, phase_apply]

end Cert.KernelIdeal.BlockValue

end
-- ==== Proof.BlockCanon.lean ====
/-
  The 64 stores of the kernel body tile the staged output block, and each stored piece is the restriction of ONE
  function of the block index (`BlockValue.blockSymm`) to its phase rectangle; so what the body leaves in the block is
  that function.  Each of the 64 cases is the same lemma (`BlockValue.piece_eq`) at its phase `(a, b)`: the body's named
  intermediate values unfold to the phase sums the lemma is stated over.
-/
import proofs.«103583_j644245094889_2_alg».proof.Proof.BlockValue

set_option maxRecDepth 16384

noncomputable section

namespace Cert.KernelIdeal.BlockValue

open Idealize.ShloMosaic Idealize.ShloMosaic.ValueIdx Cert.KernelIdeal Cert.KernelIdeal.Gen

set_option maxHeartbeats 1600000 in
/-- The staged output block after the body is the mirror-symmetrized input block. -/
theorem out_eq (x : Vec Ideal S8x8x8x16x128 .f32) : out0_1 (F := Ideal) x = blockSymm x := by
  funext y
  unfold out0_1
  refine View.canon_apply_of_pieces (Val := Elt Ideal) (S := S8x8x8x16x128) (e := .f32) (blockSymm x) _ ?_ y
    (cover0_1 _ _ _ _ _ _ _ _ _ _ _ _ _ _ _ _ _ _ _ _ _ _ _ _ _ _ _ _ _ _ _ _ _ _ _ _ _ _ _ _ _ _ _ _ _ _ _ _ _ _ _ _ _ _ _ _
      _ _ _ _ _ _ _ _ y)
  intro pc hpc z
  simp only [List.mem_cons, List.not_mem_nil, or_false] at hpc
  rcases hpc with rfl | rfl | rfl | rfl | rfl | rfl | rfl | rfl | rfl | rfl | rfl | rfl | rfl | rfl | rfl | rfl
    | rfl | rfl | rfl | rfl | rfl | rfl | rfl | rfl | rfl | rfl | rfl | rfl | rfl | rfl | rfl | rfl
    | rfl | rfl | rfl | rfl | rfl | rfl | rfl | rfl | rfl | rfl | rfl | rfl | rfl | rfl | rfl | rfl
    | rfl | rfl | rfl | rfl | rfl | rfl | rfl | rfl | rfl | rfl | rfl | rfl | rfl | rfl | rfl | rfl
  · exact piece_eq x 7 7 z
  · exact piece_eq x 7 6 z
  · exact piece_eq x 7 5 z
  · exact piece_eq x 7 4 z
  · exact piece_eq x 7 3 z
  · exact piece_eq x 7 2 z
  · exact piece_eq x 7 1 z
  · exact piece_eq x 7 0 z
  · exact piece_eq x 6 7 z
  · exact piece_eq x 6 6 z
  · exact piece_eq x 6 5 z
  · exact piece_eq x 6 4 z
  · exact piece_eq x 6 3 z
  · exact piece_eq x 6 2 z
  · exact piece_eq x 6 1 z
  · exact piece_eq x 6 0 z
  · exact piece_eq x 5 7 z
  · exact piece_eq x 5 6 z
  · exact piece_eq x 5 5 z
  · exact piece_eq x 5 4 z
  · exact piece_eq x 5 3 z
  · exact piece_eq x 5 2 z
  · exact piece_eq x 5 1 z
  · exact piece_eq x 5 0 z
  · exact piece_eq x 4 7 z
  · exact piece_eq x 4 6 z
  · exact piece_eq x 4 5 z
  · exact piece_eq x 4 4 z
  · exact piece_eq x 4 3 z
  · exact piece_eq x 4 2 z
  · exact piece_eq x 4 1 z
  · exact piece_eq x 4 0 z
  · exact piece_eq x 3 7 z
  · exact piece_eq x 3 6 z
  · exact piece_eq x 3 5 z
  · exact piece_eq x 3 4 z
  · exact piece_eq x 3 3 z
  · exact piece_eq x 3 2 z
  · exact piece_eq x 3 1 z
  · exact piece_eq x 3 0 z
  · exact piece_eq x 2 7 z
  · exact piece_eq x 2 6 z
  · exact piece_eq x 2 5 z
  · exact piece_eq x 2 4 z
  · exact piece_eq x 2 3 z
  · exact piece_eq x 2 2 z
  · exact piece_eq x 2 1 z
  · exact piece_eq x 2 0 z
  · exact piece_eq x 1 7 z
  · exact piece_eq x 1 6 z
  · exact piece_eq x 1 5 z
  · exact piece_eq x 1 4 z
  · exact piece_eq x 1 3 z
  · exact piece_eq x 1 2 z
  · exact piece_eq x 1 1 z
  · exact piece_eq x 1 0 z
  · exact piece_eq x 0 7 z
  · exact piece_eq x 0 6 z
  · exact piece_eq x 0 5 z
  · exact piece_eq x 0 4 z
  · exact piece_eq x 0 3 z
  · exact piece_eq x 0 2 z
  · exact piece_eq x 0 1 z
  · exact piece_eq x 0 0 z

end Cert.KernelIdeal.BlockValue

end
-- ==== Proof.ArrayValue.lean ====
/-
  From blocks to the whole phase-major array.

  The kernel's operand is the image in phase-major layout, shape [64, 8, 8, 128, 128]: (channel, row in tile `a`, column
  in tile `b`, tile row, tile column).  Grid point `(ci, hi)` stages, for input and output alike, the block of channels
  `8 ci … 8 ci + 7` and tile rows `16 hi … 16 hi + 15`, every phase and every tile column.  The mirror symmetrization
  mixes only the phases `(a, b)` of one tile, and a block holds all 64 phases of each of its tiles; so the block that
  point `t` writes back is block `t` of ONE function of the whole operand array (`phaseSymm`), and the 64 blocks tile
  the array: the result array after the region is `phaseSymm` of the operand array.
-/
import proofs.«103583_j644245094889_2_alg».proof.Proof.BlockCanon
import Idealize.ShloMosaic.Lib.Pipeline.Value

set_option maxRecDepth 16384

noncomputable section

namespace Cert.KernelIdeal.ArrayValue

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.BlockValue

variable (m : (ℓ : Loc nD τ sig) → Buf (Elt Ideal) ℓ) (ρ : Dev nD → PrngReg)

/-- The symmetrized entry of the phase-major array `A` at channel `c`, phase `(a, b)`, tile `(hb, wb)`. -/
def phaseAt (A : S64x8x8x128x128.Idx → EReal) (c : Fin 64) (a b : Fin 8) (hb wb : Fin 128) : EReal :=
  (Cert.Dihedral.mirrorSum (fun a' b' => A (ix5 c a' b' hb wb)) a b
    + Cert.Dihedral.mirrorSum (fun a' b' => A (ix5 c a' b' hb wb)) b a) * Ideal.ofBits .f32 0x3E000000#32

/-- The symmetrized phase-major array. -/
def phaseSymm (A : S64x8x8x128x128.Idx → EReal) : S64x8x8x128x128.Idx → EReal :=
  fun i => phaseAt A (i 0) (i 1) (i 2) (i 3) (i 4)

/-- The printed index maps, decided over the 64 grid points: a block spans all phases and all tile columns (block
    index 0 on those axes), there are 8 blocks of channels and 8 of tile rows, and the input window's block sits where
    the output window's does. -/
theorem idx_facts : ∀ t : Fin cfg0.N,
    win0_1.index t (1 : Fin 5) = 0 ∧ win0_1.index t (2 : Fin 5) = 0 ∧ win0_1.index t (4 : Fin 5) = 0
    ∧ win0_1.index t (0 : Fin 5) ≤ 7 ∧ win0_1.index t (3 : Fin 5) ≤ 7
    ∧ win0_0.index t (0 : Fin 5) = win0_1.index t (0 : Fin 5)
    ∧ win0_0.index t (1 : Fin 5) = win0_1.index t (1 : Fin 5)
    ∧ win0_0.index t (2 : Fin 5) = win0_1.index t (2 : Fin 5)
    ∧ win0_0.index t (3 : Fin 5) = win0_1.index t (3 : Fin 5)
    ∧ win0_0.index t (4 : Fin 5) = win0_1.index t (4 : Fin 5) :=
  (by decide +kernel : ∀ t : Fin grid0.N, _)

/-- Every (channel block, tile-row block) is some grid point's. -/
theorem idx_onto : ∀ (q0 q3 : Fin 8), ∃ t : Fin cfg0.N, win0_1.index t = ![q0.val, 0, 0, q3.val, 0] :=
  (by decide +kernel : ∀ (q0 q3 : Fin 8), ∃ t : Fin grid0.N, win0_1.index t = ![q0.val, 0, 0, q3.val, 0])

/-- The channel of the array that channel `p` of block `t` is. -/
def chan (t : Fin cfg0.N) (p : Fin 8) : Fin 64 :=
  ⟨win0_1.index t (0 : Fin 5) * 8 + p.val, by have h := (idx_facts t).2.2.2.1; have := p.isLt; omega⟩

/-- The tile row of the array that tile row `h` of block `t` is. -/
def trow (t : Fin cfg0.N) (h : Fin 16) : Fin 128 :=
  ⟨win0_1.index t (3 : Fin 5) * 16 + h.val, by have h' := (idx_facts t).2.2.2.2.1; have := h.isLt; omega⟩

/-- Where the output window's block at point `t` puts a block index. -/
theorem emb_out (t : Fin cfg0.N) (p : Fin 8) (a b : Fin 8) (h : Fin 16) (l : Fin 128) :
    ((cfg0.win 1).blk t).view.emb (ix5 p a b h l) = ix5 (chan t p) a b (trow t h) l := by
  obtain ⟨e1, e2, e4, -, -, -, -, -, -, -⟩ := idx_facts t
  funext ax; apply Fin.ext
  match ax with
  | ⟨0, _⟩ => show win0_1.index t (0 : Fin 5) * 8 + 1 * p.val = win0_1.index t (0 : Fin 5) * 8 + p.val; omega
  | ⟨1, _⟩ => show win0_1.index t (1 : Fin 5) * 8 + 1 * a.val = a.val; omega
  | ⟨2, _⟩ => show win0_1.index t (2 : Fin 5) * 8 + 1 * b.val = b.val; omega
  | ⟨3, _⟩ => show win0_1.index t (3 : Fin 5) * 16 + 1 * h.val = win0_1.index t (3 : Fin 5) * 16 + h.val; omega
  | ⟨4, _⟩ => show win0_1.index t (4 : Fin 5) * 128 + 1 * l.val = l.val; omega

/-- The input window's block at point `t` puts it at the same place. -/
theorem emb_in (t : Fin cfg0.N) (p : Fin 8) (a b : Fin 8) (h : Fin 16) (l : Fin 128) :
    ((cfg0.win 0).blk t).view.emb (ix5 p a b h l) = ix5 (chan t p) a b (trow t h) l := by
  obtain ⟨e1, e2, e4, -, -, f0, f1, f2, f3, f4⟩ := idx_facts t
  funext ax; apply Fin.ext
  match ax with
  | ⟨0, _⟩ => show win0_0.index t (0 : Fin 5) * 8 + 1 * p.val = win0_1.index t (0 : Fin 5) * 8 + p.val; omega
  | ⟨1, _⟩ => show win0_0.index t (1 : Fin 5) * 8 + 1 * a.val = a.val; omega
  | ⟨2, _⟩ => show win0_0.index t (2 : Fin 5) * 8 + 1 * b.val = b.val; omega
  | ⟨3, _⟩ => show win0_0.index t (3 : Fin 5) * 16 + 1 * h.val = win0_1.index t (3 : Fin 5) * 16 + h.val; omega
  | ⟨4, _⟩ => show win0_0.index t (4 : Fin 5) * 128 + 1 * l.val = l.val; omega

/-- The staged input block at point `t`, read at a block index, is the operand array as the region finds it at the
    place that index names. -/
theorem iblk_apply (c : Dev nD) (t : Fin cfg0.N) (p : Fin 8) (a b : Fin 8) (h : Fin 16) (l : Fin 128) :
    (iblk m c 0 t : Vec Ideal S8x8x8x16x128 .f32) (ix5 p a b h l)
      = (V m c main_v2 : S64x8x8x128x128.Idx → EReal) (ix5 (chan t p) a b (trow t h) l) := by
  unfold iblk
  rw [View.read_apply]
  show (V m c main_v2 : S64x8x8x128x128.Idx → EReal) (((cfg0.win 0).blk t).view.emb (ix5 p a b h l)) = _
  rw [emb_in]

/-- WHAT POINT `t` WRITES BACK is block `t` of the symmetrized operand array. -/
theorem flushed_eq (c : Dev nD) (t : Fin cfg0.N) :
    (dats m 0 c).flushed 1 t = ((cfg0.win 1).blk t).view.read (Elt Ideal) (phaseSymm (V m c main_v2)) := by
  show (cfg0.win 1).cut (grid0.coords t) ((dats m 0 c).after 1 t) = _
  rw [after0_1, out_eq]
  funext j
  obtain ⟨p, a, b, h, l, rfl⟩ : ∃ (p : Fin 8) (a b : Fin 8) (h : Fin 16) (l : Fin 128), j = ix5 p a b h l :=
    ⟨j 0, j 1, j 2, j 3, j 4, eq_ix5 j⟩
  show blockSymm (iblk m c 0 t) (ix5 p a b h l)
    = phaseSymm (V m c main_v2) (((cfg0.win 1).blk t).view.emb (ix5 p a b h l))
  rw [emb_out]
  show blockAt (iblk m c 0 t) p a b h l = phaseAt (V m c main_v2) (chan t p) a b (trow t h) l
  unfold blockAt phaseAt
  simp only [iblk_apply]

/-- An index of the array is in point `t`'s block iff each coordinate is in the block's range on its axis. -/
theorem mem_blk (t : Fin cfg0.N) (i : S64x8x8x128x128.Idx) :
    i ∈ ((cfg0.win 1).blk t).view.set ↔ ∀ a : Fin 5, win0_1.index t a * S8x8x8x16x128.size a ≤ (i a).val
      ∧ (i a).val < win0_1.index t a * S8x8x8x16x128.size a + S8x8x8x16x128.size a := by
  show i ∈ ((View.whole main_v3).slice (win0_1.rect t)).set ↔ _
  rw [View.set_slice_whole, Rect.mem_set_unit]
  exact Iff.rfl

/-- The blocks cover the array: index `i` lies in the block of channels `i₀ / 8` and tile rows `i₃ / 16`. -/
theorem cover (i : S64x8x8x128x128.Idx) :
    ∃ t : Fin cfg0.N, (cfg0.win 1).flush t = true ∧ i ∈ ((cfg0.win 1).blk t).view.set := by
  have hi0 : (i 0).val < 64 := (i 0).isLt
  have hi1 : (i 1).val < 8 := (i 1).isLt
  have hi2 : (i 2).val < 8 := (i 2).isLt
  have hi3 : (i 3).val < 128 := (i 3).isLt
  have hi4 : (i 4).val < 128 := (i 4).isLt
  obtain ⟨t, ht⟩ := idx_onto ⟨(i 0).val / 8, by omega⟩ ⟨(i 3).val / 16, by omega⟩
  have q0 : win0_1.index t (0 : Fin 5) = (i 0).val / 8 := congrFun ht 0
  have q1 : win0_1.index t (1 : Fin 5) = 0 := congrFun ht 1
  have q2 : win0_1.index t (2 : Fin 5) = 0 := congrFun ht 2
  have q3 : win0_1.index t (3 : Fin 5) = (i 3).val / 16 := congrFun ht 3
  have q4 : win0_1.index t (4 : Fin 5) = 0 := congrFun ht 4
  refine ⟨t, flush0_1 t, ?_⟩
  rw [mem_blk]
  intro a
  match a with
  | ⟨0, _⟩ => show win0_1.index t (0 : Fin 5) * 8 ≤ (i 0).val ∧ (i 0).val < win0_1.index t (0 : Fin 5) * 8 + 8; omega
  | ⟨1, _⟩ => show win0_1.index t (1 : Fin 5) * 8 ≤ (i 1).val ∧ (i 1).val < win0_1.index t (1 : Fin 5) * 8 + 8; omega
  | ⟨2, _⟩ => show win0_1.index t (2 : Fin 5) * 8 ≤ (i 2).val ∧ (i 2).val < win0_1.index t (2 : Fin 5) * 8 + 8; omega
  | ⟨3, _⟩ => show win0_1.index t (3 : Fin 5) * 16 ≤ (i 3).val ∧ (i 3).val < win0_1.index t (3 : Fin 5) * 16 + 16; omega
  | ⟨4, _⟩ => show win0_1.index t (4 : Fin 5) * 128 ≤ (i 4).val ∧ (i 4).val < win0_1.index t (4 : Fin 5) * 128 + 128; omega

/-- THE RESULT ARRAY after the region: the symmetrized operand array. -/
theorem final (c : Dev nD) : (dats m 0 c).arrAt 1 cfg0.N = phaseSymm (V m c main_v2) :=
  (dats m 0 c).arrAt_eq_of_cover 1 (phaseSymm (V m c main_v2)) (fun t _ => flushed_eq m c t) cover

end Cert.KernelIdeal.ArrayValue

end
-- ==== Proof.KernelRun.lean ====
/-
  The kernel program's run, read as one term of its argument.

  Before the region the host reshapes the argument [1, 64, 1024, 1024] to [64, 1024, 1024], cuts rows and columns into
  tiles, [64, 128, 8, 128, 8], and moves the two in-tile axes forward: the operand of the region is the phase-major
  array [64, 8, 8, 128, 128].  The region leaves its mirror symmetrization (`ArrayValue.final`).  After the region the
  host moves the axes back, [64, 128, 8, 128, 8], and reshapes to [64, 1024, 1024].
-/
import proofs.«103583_j644245094889_2_alg».proof.Proof.ArrayValue
import Idealize.ShloMosaic.Lib.StableHlo.Run

set_option maxRecDepth 16384

noncomputable section

namespace Cert.KernelIdeal.KernelRun

open Idealize.ShloMosaic Idealize.ShloMosaic.TcCoe Idealize.SL.Sem Idealize.ShloMosaic.ValueIdx
open Idealize.ShloMosaic.StableHlo
open Idealize.ShloMosaic.Pipeline (Dat)
open Cert.KernelIdeal Cert.KernelIdeal.Gen Cert.KernelIdeal.BlockValue Cert.KernelIdeal.ArrayValue

variable (m : (ℓ : Loc nD τ sig) → Buf (Elt Ideal) ℓ) (ρ : Dev nD → PrngReg)

/-- The argument cut into tiles: (channel, tile row, row in tile, tile column, column in tile). -/
def tiled (a : FVec Ideal S1x64x1024x1024 .f32) : S64x128x8x128x8.Idx → EReal :=
  shapeCast S64x128x8x128x8 (shapeCast S64x1024x1024 a shapeCasts_S1x64x1024x1024_S64x1024x1024)
    shapeCasts_S64x1024x1024_S64x128x8x128x8

/-- The tiled array laid back out as the image. -/
def untile (v : S64x128x8x128x8.Idx → EReal) : FVec Ideal S64x1024x1024 .f32 :=
  shapeCast S64x1024x1024 v shapeCasts_S64x128x8x128x8_S64x1024x1024

/-- The operand array as the region finds it: the tiled argument with the in-tile axes moved forward. -/
theorem V_operand (c : Dev nD) :
    (V m c main_v2 : S64x8x8x128x128.Idx → EReal)
      = transpose S64x8x8x128x128 [0, 2, 4, 1, 3] (tiled (m ((c.tc : Thread nD τ).loc main_arg0)))
          transposes_S64x128x8x128x8_S64x8x8x128x128_0_2_4_1_3 := by
  show StableHlo.after hostOps0 (fun b => m (c, b)) (Proc.devRef .tc main_v2) = _
  after_results
  rfl

/-- The program's result after the host tail: the region's result array with the axes moved back, laid out as the
    image. -/
theorem tail_v5 (c : Dev nD) :
    Pipeline.afterTail₀ cfgs (dats m) 0 (V0 m) [hostOps1] c main_v5
      = untile (transpose S64x128x8x128x8 [0, 3, 1, 4, 2] ((dats m 0 c).arrAt 1 cfg0.N)
          transposes_S64x8x8x128x128_S64x128x8x128x8_0_3_1_4_2) := by
  unfold Pipeline.afterTail₀
  show StableHlo.after hostOps1 _ (Proc.devRef .tc main_v5) = _
  after_results
  rw [Pipeline.withArrays_arr spec0 launch0.win.arr_inj c _ _ 1]
  rfl

/-- The operand array read at an index: phase `(a, b)` of tile `(hb, wb)` is entry `(a, b)` of that tile. -/
theorem operand_apply (x : S64x128x8x128x8.Idx → EReal) (c : Fin 64) (a b : Fin 8) (hb wb : Fin 128) :
    transpose S64x8x8x128x128 [0, 2, 4, 1, 3] x transposes_S64x128x8x128x8_S64x8x8x128x128_0_2_4_1_3 (ix5 c a b hb wb)
      = x (ix5 c hb a wb b) :=
  transpose_apply _ _ _ (ix5 c a b hb wb) (ix5 c hb a wb b) fun ax => match ax with
    | ⟨0, _⟩ => rfl | ⟨1, _⟩ => rfl | ⟨2, _⟩ => rfl | ⟨3, _⟩ => rfl | ⟨4, _⟩ => rfl

/-- Moving the in-tile axes forward, symmetrizing phase by phase, and moving them back is symmetrizing tile by tile. -/
theorem stage_eq (x : S64x128x8x128x8.Idx → EReal) :
    transpose S64x128x8x128x8 [0, 3, 1, 4, 2]
        (phaseSymm (transpose S64x8x8x128x128 [0, 2, 4, 1, 3] x transposes_S64x128x8x128x8_S64x8x8x128x128_0_2_4_1_3))
        transposes_S64x8x8x128x128_S64x128x8x128x8_0_3_1_4_2
      = Cert.Dihedral.symm (Ideal.ofBits .f32 0x3E000000#32) x := by
  funext q
  obtain ⟨c, hb, i, wb, j, rfl⟩ : ∃ (c : Fin 64) (hb : Fin 128) (i : Fin 8) (wb : Fin 128) (j : Fin 8), q = ix5 c hb i wb j :=
    ⟨q 0, q 1, q 2, q 3, q 4, eq_ix5 q⟩
  refine (transpose_apply _ _ _ (ix5 c hb i wb j) (ix5 c i j hb wb) fun ax => match ax with
    | ⟨0, _⟩ => rfl | ⟨1, _⟩ => rfl | ⟨2, _⟩ => rfl | ⟨3, _⟩ => rfl | ⟨4, _⟩ => rfl).trans ?_
  show phaseAt _ c i j hb wb = Cert.Dihedral.symmAt _ x c hb i wb j
  unfold phaseAt Cert.Dihedral.symmAt Cert.Dihedral.tile
  have e : (fun (a' b' : Fin 8) => transpose S64x8x8x128x128 [0, 2, 4, 1, 3] x
      transposes_S64x128x8x128x8_S64x8x8x128x128_0_2_4_1_3 (ix5 c a' b' hb wb)) = fun a b => x (ix5 c hb a wb b) :=
    funext fun a' => funext fun b' => operand_apply x c a' b' hb wb
  rw [e]

/-- After the frame run the program's result buffer holds what the host tail computes. -/
theorem post_v5 (r : PUnit × MemSt nD τ sig (Elt Ideal))
    (h : Pipeline.FramePost cfgs (dats m) 0 (Pipeline.afterTail₀ cfgs (dats m) 0 (V0 m) [hostOps1]) r) (c : Dev nD) :
    r.2.mem ((c.tc : Thread nD τ).loc main_v5) = Pipeline.afterTail₀ cfgs (dats m) 0 (V0 m) [hostOps1] c main_v5 :=
  (h c).2 main_v5 (Pipeline.mem_restRefs_of main_v5 (by decide) (by decide))

/-- And the argument is as launched. -/
theorem kept_arg0 (r : PUnit × MemSt nD τ sig (Elt Ideal))
    (h : Pipeline.FramePost cfgs (dats m) 0 (Pipeline.afterTail₀ cfgs (dats m) 0 (V0 m) [hostOps1]) r) (c : Dev nD) :
    r.2.mem ((c.tc : Thread nD τ).loc main_arg0) = m ((c.tc : Thread nD τ).loc main_arg0) :=
  ((h c).2 main_arg0 (Pipeline.mem_restRefs_of main_arg0 (by decide) (by decide))).trans (W_main_arg0 m (dats m) c)

/-- The program's result as one term of its argument: the tiled argument, symmetrized tile by tile, laid back out. -/
theorem result_eq (c : Dev nD) :
    Pipeline.afterTail₀ cfgs (dats m) 0 (V0 m) [hostOps1] c main_v5
      = untile (Cert.Dihedral.symm (Ideal.ofBits .f32 0x3E000000#32) (tiled (m ((c.tc : Thread nD τ).loc main_arg0)))) := by
  rw [tail_v5, ArrayValue.final, V_operand, stage_eq]

/-- The run, read: every weakly fair execution terminates with the result at that term, the argument unchanged. -/
theorem run : θ_run defs (onTc (τ := τ) (main (F := Ideal))) ⟨m, fun _ => 0, ρ⟩ fun r => ∀ c : Dev nD,
      r.2.mem ((c.tc : Thread nD τ).loc main_v5)
        = untile (Cert.Dihedral.symm (Ideal.ofBits .f32 0x3E000000#32) (tiled (m ((c.tc : Thread nD τ).loc main_arg0))))
      ∧ r.2.mem ((c.tc : Thread nD τ).loc main_arg0) = m ((c.tc : Thread nD τ).loc main_arg0) :=
  (θ_run defs _ _).mono (fun r h c => ⟨(post_v5 m r h c).trans (result_eq m c), kept_arg0 m r h c⟩) (run_main m ρ)

end Cert.KernelIdeal.KernelRun

end
-- ==== Proof.RefRun.lean ====
/-
  The reference program's run, read back.

  Its @main is a straight line of seventeen host operations once the call of the quarter turn is unfolded (the quarter
  turn is two of them: a reverse of the last axis, then a transpose of the last two axes).  After every weakly fair
  execution the result buffer holds those operations composed on the argument (`out`), and the argument is unchanged.

  `out`, in words: cut the image into 8 × 8 tiles and bring the two in-tile axes last (`tiles`); add to every tile its
  three mirror images (`mirrors`); add to that its quarter turn (`turned`), scale by the constant, and undo the cutting.
-/
import proofs.«103583_j644245094889_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The result as one pure term of the argument -/

/-- The argument cut into 8 × 8 tiles, indexed (channel, tile row, tile column, row in tile, column in tile). -/
def tiles (a : (⟨S1x64x1024x1024, .f32⟩ : BufTy).Contents (Elt F)) : (⟨S64x128x128x8x8, .f32⟩ : BufTy).Contents (Elt F) :=
  transpose S64x128x128x8x8 [0, 1, 3, 2, 4]
    (shapeCast S64x128x8x128x8 (shapeCast S64x1024x1024 a shapeCasts_S1x64x1024x1024_S64x1024x1024)
      shapeCasts_S64x1024x1024_S64x128x8x128x8)
    transposes_S64x128x8x128x8_S64x128x128x8x8_0_1_3_2_4

/-- Every tile plus its three mirror images: left–right, up–down, and both. -/
def mirrors (v : (⟨S64x128x128x8x8, .f32⟩ : BufTy).Contents (Elt F)) : (⟨S64x128x128x8x8, .f32⟩ : BufTy).Contents (Elt F) :=
  addf (addf (addf v (Host.reverse [4] v)) (Host.reverse [3] v)) (Host.reverse [3, 4] v)

/-- The quarter turn of every tile: the last axis reversed, then the last two axes exchanged. -/
def turned (v : (⟨S64x128x128x8x8, .f32⟩ : BufTy).Contents (Elt F)) : (⟨S64x128x128x8x8, .f32⟩ : BufTy).Contents (Elt F) :=
  transpose S64x128x128x8x8 [0, 1, 2, 4, 3] (Host.reverse [4] v) transposes_S64x128x128x8x8_S64x128x128x8x8_0_1_2_4_3

/-- The symmetrized tiles: the mirror sum plus its quarter turn, times the constant. -/
def scaled (v : (⟨S64x128x128x8x8, .f32⟩ : BufTy).Contents (Elt F)) : (⟨S64x128x128x8x8, .f32⟩ : BufTy).Contents (Elt F) :=
  mulf (addf v (turned v)) (broadcastInDim S64x128x128x8x8 ![] bcast_S_S64x128x128x8x8 (constant S_ .f32 0x3E000000#32))

/-- The reference's result as one pure term of its argument. -/
def out (a : (⟨S1x64x1024x1024, .f32⟩ : BufTy).Contents (Elt F)) : (⟨S64x1024x1024, .f32⟩ : BufTy).Contents (Elt F) :=
  shapeCast S64x1024x1024
    (transpose S64x128x8x128x8 [0, 1, 3, 2, 4] (scaled (mirrors (tiles a))) transposes_S64x128x128x8x8_S64x128x8x128x8_0_1_3_2_4)
    shapeCasts_S64x128x8x128x8_S64x1024x1024

/-! ## The program as a list of operations -/

/-- @main's seventeen operations in order, the call unfolded: the quarter turn's reverse runs into the call's own buffer,
    its transpose into the buffer of the call's result. -/
abbrev ops : List (HloOp τ sig (Elt F)) :=
  [ reshape main_arg0 main_v0 rfl shapeCasts_S1x64x1024x1024_S64x1024x1024,
    reshape main_v0 main_v1 rfl shapeCasts_S64x1024x1024_S64x128x8x128x8,
    unary main_v1 main_v2 ((transpose S64x128x128x8x8 [0, 1, 3, 2, 4] · transposes_S64x128x8x128x8_S64x128x128x8x8_0_1_3_2_4) : (⟨S64x128x8x128x8, .f32⟩ : BufTy).Contents (Elt F) → (⟨S64x128x128x8x8, .f32⟩ : BufTy).Contents (Elt F)),
    unary main_v2 main_v3 (Host.reverse [4] : (⟨S64x128x128x8x8, .f32⟩ : BufTy).Contents (Elt F) → (⟨S64x128x128x8x8, .f32⟩ : BufTy).Contents (Elt F)),
    binary main_v2 main_v3 main_v4 (addf : (⟨S64x128x128x8x8, .f32⟩ : BufTy).Contents (Elt F) → (⟨S64x128x128x8x8, .f32⟩ : BufTy).Contents (Elt F) → (⟨S64x128x128x8x8, .f32⟩ : BufTy).Contents (Elt F)),
    unary main_v2 main_v5 (Host.reverse [3] : (⟨S64x128x128x8x8, .f32⟩ : BufTy).Contents (Elt F) → (⟨S64x128x128x8x8, .f32⟩ : BufTy).Contents (Elt F)),
    binary main_v4 main_v5 main_v6 (addf : (⟨S64x128x128x8x8, .f32⟩ : BufTy).Contents (Elt F) → (⟨S64x128x128x8x8, .f32⟩ : BufTy).Contents (Elt F) → (⟨S64x128x128x8x8, .f32⟩ : BufTy).Contents (Elt F)),
    unary main_v2 main_v7 (Host.reverse [3, 4] : (⟨S64x128x128x8x8, .f32⟩ : BufTy).Contents (Elt F) → (⟨S64x128x128x8x8, .f32⟩ : BufTy).Contents (Elt F)),
    binary main_v6 main_v7 main_v8 (addf : (⟨S64x128x128x8x8, .f32⟩ : BufTy).Contents (Elt F) → (⟨S64x128x128x8x8, .f32⟩ : BufTy).Contents (Elt F) → (⟨S64x128x128x8x8, .f32⟩ : BufTy).Contents (Elt F)),
    TRef.unary (.of main_v8 : TRef sig ⟨S64x128x128x8x8, .f32⟩) main_call0.call0.v0 (Host.reverse [4]),
    TRef.unary main_call0.call0.v0 main_call0.v1 (transpose S64x128x128x8x8 [0, 1, 2, 4, 3] · transposes_S64x128x128x8x8_S64x128x128x8x8_0_1_2_4_3),
    binary main_v8 main_v9 main_v10 (addf : (⟨S64x128x128x8x8, .f32⟩ : BufTy).Contents (Elt F) → (⟨S64x128x128x8x8, .f32⟩ : BufTy).Contents (Elt F) → (⟨S64x128x128x8x8, .f32⟩ : BufTy).Contents (Elt F)),
    nullary main_cst (constant S_ .f32 0x3E000000#32),
    unary main_cst main_v11 (broadcastInDim S64x128x128x8x8 ![] bcast_S_S64x128x128x8x8 : (⟨S_, .f32⟩ : BufTy).Contents (Elt F) → (⟨S64x128x128x8x8, .f32⟩ : BufTy).Contents (Elt F)),
    binary main_v10 main_v11 main_v12 (mulf : (⟨S64x128x128x8x8, .f32⟩ : BufTy).Contents (Elt F) → (⟨S64x128x128x8x8, .f32⟩ : BufTy).Contents (Elt F) → (⟨S64x128x128x8x8, .f32⟩ : BufTy).Contents (Elt F)),
    unary main_v12 main_v13 ((transpose S64x128x8x128x8 [0, 1, 3, 2, 4] · transposes_S64x128x128x8x8_S64x128x8x128x8_0_1_3_2_4) : (⟨S64x128x128x8x8, .f32⟩ : BufTy).Contents (Elt F) → (⟨S64x128x8x128x8, .f32⟩ : BufTy).Contents (Elt F)),
    reshape main_v13 main_v14 rfl shapeCasts_S64x128x8x128x8_S64x1024x1024 ]

set_option maxRecDepth 1024 in
/-- @main is that straight line: the two functions' definitions unfolded at their calls and the call's record at its
    fields, both sides are one chain of steps once sequencing is reassociated. -/
theorem main_eq (c : Dev nD) : main (F := F) c = seq ops := by
  simp only [main, fn_rot90.body, fn_flip.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨reshape_bufs_sub .., reshape_bufs_sub .., unary_bufs_sub .., unary_bufs_sub .., binary_bufs_sub .., unary_bufs_sub ..,
    binary_bufs_sub .., unary_bufs_sub .., binary_bufs_sub .., unary_bufs_sub .., unary_bufs_sub .., binary_bufs_sub ..,
    nullary_bufs_sub .., unary_bufs_sub .., binary_bufs_sub .., unary_bufs_sub .., reshape_bufs_sub ..⟩

/-! ## The run -/

/-- What the result buffer holds after the line is `out` of what the argument buffer held: each operation's result read
    at its own buffer, every transport along a literal buffer's type the identity. -/
theorem out_eq (V : Valuation τ sig (Elt F)) :
    after ops V (main_v14 : DevRef τ sig) = out (V (main_arg0 : DevRef τ sig)) := by
  after_results
  rfl

/-- No operation of the line writes the argument's buffer. -/
theorem arg0_eq (V : Valuation τ sig (Elt F)) :
    after ops V (main_arg0 : DevRef τ sig) = V (main_arg0 : DevRef τ sig) := by
  after_results

/-- On the device, for any float values, from any memory with zero counters: every weakly fair execution of @main
    terminates with the result buffer at `out` of the argument's launch contents and the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v14) = out (m ((c.tc : Thread nD τ).loc main_arg0))
      ∧ r.2.mem ((c.tc : Thread nD τ).loc main_arg0) = m ((c.tc : Thread nD τ).loc main_arg0) :=
  (θ_run defs _ _).mono (fun _ h c => ⟨(h c main_v14).trans (out_eq _), (h c main_arg0).trans (arg0_eq _)⟩)
    (run_seq scopedRefs_eq scopedSems_eq defs main (fun _ => ops) main_eq (fun _ => ops_sub) m ρ)

end Cert.ReferenceIdeal.RefRun

end
-- ==== Proof.RefValue.lean ====
/-
  The reference's result, at the extended reals, is the symmetrized tiled image.

  The two outer reshapes and the last one are never read at an index: the result is the last reshape of a five-axis
  array, and that array is the symmetrization of the argument cut into tiles, index by index.  At an index
  (channel, tile row, row in tile, tile column, column in tile) the transposes only rename coordinates, a reverse of
  an in-tile axis replaces that coordinate by its mirror image, and the sums and the product are the extended reals'.
  What is left is the mirror sum of the tile at `(i, j)` plus the mirror sum at `(j, 7 - i)`, times the constant:
  the symmetrized entry as the quarter turn spells it.
-/
import proofs.«103583_j644245094889_2_alg».proof.Proof.RefRun
import proofs.«103583_j644245094889_2_alg».proof.Proof.Dihedral
import Idealize.ShloMosaic.Lib.ValueIdx
import Idealize.ShloMosaic.Lib.Pipeline.Value

noncomputable section

namespace Cert.ReferenceIdeal.RefValue

open Cert.ReferenceIdeal Cert.ReferenceIdeal.Gen Idealize.ShloMosaic Idealize.ShloMosaic.TcCoe Idealize.SL.Sem
open Idealize.ShloMosaic.ValueIdx Cert.Dihedral

/-- The argument cut into 8 × 8 tiles: (channel, tile row, row in tile, tile column, column in tile). -/
def tiled (a : FVec Ideal S1x64x1024x1024 .f32) : Cert.Dihedral.Tiled.Idx → EReal :=
  shapeCast S64x128x8x128x8 (shapeCast S64x1024x1024 a shapeCasts_S1x64x1024x1024_S64x1024x1024)
    shapeCasts_S64x1024x1024_S64x128x8x128x8

/-- A tiled array laid back out as the image. -/
def untile (v : Cert.Dihedral.Tiled.Idx → EReal) : FVec Ideal S64x1024x1024 .f32 :=
  shapeCast S64x1024x1024 v shapeCasts_S64x128x8x128x8_S64x1024x1024

/-- The constant the reference multiplies by (one eighth, as its bit pattern). -/
abbrev eighth : EReal := Ideal.ofBits .f32 0x3E000000#32

/-! ## The operations read at an index -/

/-- A reverse of the last axis reads the mirrored column. -/
theorem reverse4_apply (v : S64x128x128x8x8.Idx → EReal) (c : Fin 64) (hb wb : Fin 128) (i j : Fin 8) :
    Host.reverse [4] v (ix5 c hb wb i j) = v (ix5 c hb wb i j.rev) := by
  refine congrArg v (funext fun b => ?_)
  match b with
  | ⟨0, _⟩ => rfl
  | ⟨1, _⟩ => rfl
  | ⟨2, _⟩ => rfl
  | ⟨3, _⟩ => rfl
  | ⟨4, _⟩ => rfl

/-- A reverse of the fourth axis reads the mirrored row. -/
theorem reverse3_apply (v : S64x128x128x8x8.Idx → EReal) (c : Fin 64) (hb wb : Fin 128) (i j : Fin 8) :
    Host.reverse [3] v (ix5 c hb wb i j) = v (ix5 c hb wb i.rev j) := by
  refine congrArg v (funext fun b => ?_)
  match b with
  | ⟨0, _⟩ => rfl
  | ⟨1, _⟩ => rfl
  | ⟨2, _⟩ => rfl
  | ⟨3, _⟩ => rfl
  | ⟨4, _⟩ => rfl

/-- A reverse of both in-tile axes reads the entry mirrored both ways. -/
theorem reverse34_apply (v : S64x128x128x8x8.Idx → EReal) (c : Fin 64) (hb wb : Fin 128) (i j : Fin 8) :
    Host.reverse [3, 4] v (ix5 c hb wb i j) = v (ix5 c hb wb i.rev j.rev) := by
  refine congrArg v (funext fun b => ?_)
  match b with
  | ⟨0, _⟩ => rfl
  | ⟨1, _⟩ => rfl
  | ⟨2, _⟩ => rfl
  | ⟨3, _⟩ => rfl
  | ⟨4, _⟩ => rfl

/-- The tiles with the in-tile axes last, read at an index: the tile's entry. -/
theorem tiles_apply (a : FVec Ideal S1x64x1024x1024 .f32) (c : Fin 64) (hb wb : Fin 128) (i j : Fin 8) :
    RefRun.tiles (F := Ideal) a (ix5 c hb wb i j) = tile (tiled a) c hb wb i j :=
  transpose_apply _ _ _ (ix5 c hb wb i j) (ix5 c hb i wb j) fun b =>
    match b with
    | ⟨0, _⟩ => rfl
    | ⟨1, _⟩ => rfl
    | ⟨2, _⟩ => rfl
    | ⟨3, _⟩ => rfl
    | ⟨4, _⟩ => rfl

/-- The sum of the four mirror images, read at an index: the mirror sum of the tile. -/
theorem mirrors_apply (a : FVec Ideal S1x64x1024x1024 .f32) (c : Fin 64) (hb wb : Fin 128) (i j : Fin 8) :
    RefRun.mirrors (F := Ideal) (RefRun.tiles (F := Ideal) a) (ix5 c hb wb i j) = mirrorSum (tile (tiled a) c hb wb) i j := by
  show ((RefRun.tiles (F := Ideal) a (ix5 c hb wb i j) + Host.reverse [4] (RefRun.tiles (F := Ideal) a) (ix5 c hb wb i j))
      + Host.reverse [3] (RefRun.tiles (F := Ideal) a) (ix5 c hb wb i j))
      + Host.reverse [3, 4] (RefRun.tiles (F := Ideal) a) (ix5 c hb wb i j) = _
  rw [reverse4_apply, reverse3_apply, reverse34_apply, tiles_apply, tiles_apply, tiles_apply, tiles_apply]
  rfl

/-- The quarter turn, read at an index: the entry at `(j, 7 - i)`. -/
theorem turned_apply (v : S64x128x128x8x8.Idx → EReal) (c : Fin 64) (hb wb : Fin 128) (i j : Fin 8) :
    RefRun.turned (F := Ideal) v (ix5 c hb wb i j) = v (ix5 c hb wb j i.rev) :=
  (transpose_apply _ _ _ (ix5 c hb wb i j) (ix5 c hb wb j i) fun b =>
    match b with
    | ⟨0, _⟩ => rfl
    | ⟨1, _⟩ => rfl
    | ⟨2, _⟩ => rfl
    | ⟨3, _⟩ => rfl
    | ⟨4, _⟩ => rfl).trans (reverse4_apply v c hb wb j i)

/-- The five-axis array the last reshape reads is the symmetrized tiled argument. -/
theorem stage_eq (a : FVec Ideal S1x64x1024x1024 .f32) :
    transpose S64x128x8x128x8 [0, 1, 3, 2, 4] (RefRun.scaled (F := Ideal) (RefRun.mirrors (F := Ideal) (RefRun.tiles (F := Ideal) a)))
        transposes_S64x128x128x8x8_S64x128x8x128x8_0_1_3_2_4
      = symm eighth (tiled a) := by
  funext q
  obtain ⟨c, hb, i, wb, j, rfl⟩ : ∃ (c : Fin 64) (hb : Fin 128) (i : Fin 8) (wb : Fin 128) (j : Fin 8), q = ix5 c hb i wb j :=
    ⟨q 0, q 1, q 2, q 3, q 4, eq_ix5 q⟩
  refine (transpose_apply _ _ _ (ix5 c hb i wb j) (ix5 c hb wb i j) fun b =>
    match b with
    | ⟨0, _⟩ => rfl
    | ⟨1, _⟩ => rfl
    | ⟨2, _⟩ => rfl
    | ⟨3, _⟩ => rfl
    | ⟨4, _⟩ => rfl).trans ?_
  show (RefRun.mirrors (F := Ideal) (RefRun.tiles (F := Ideal) a) (ix5 c hb wb i j)
      + RefRun.turned (F := Ideal) (RefRun.mirrors (F := Ideal) (RefRun.tiles (F := Ideal) a)) (ix5 c hb wb i j)) * eighth = _
  rw [turned_apply, mirrors_apply, mirrors_apply]
  exact symmAt_quarter_turn eighth (tiled a) c hb i wb j

/-- The reference's result term, at the extended reals, is the symmetrized tiled argument laid back out. -/
theorem out_eq (a : FVec Ideal S1x64x1024x1024 .f32) :
    RefRun.out (F := Ideal) a = untile (symm (Ideal.ofBits .f32 0x3E000000#32) (tiled a)) :=
  congrArg (fun v => shapeCast S64x1024x1024 v shapeCasts_S64x128x8x128x8_S64x1024x1024) (stage_eq a)

/-- On the device, from any memory with zero counters: every weakly fair execution of the reference terminates with
    the result buffer at the symmetrized tiled argument laid back out, and the argument unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v14)
          = untile (symm (Ideal.ofBits .f32 0x3E000000#32) (tiled (m ((c.tc : Thread nD τ).loc main_arg0))))
      ∧ r.2.mem ((c.tc : Thread nD τ).loc main_arg0) = m ((c.tc : Thread nD τ).loc main_arg0) :=
  (θ_run defs _ _).mono (fun _ h c => ⟨(h c).1.trans (out_eq _), (h c).2⟩) (RefRun.run (F := Ideal) m ρ)

end Cert.ReferenceIdeal.RefValue

end
-- ==== Proof.lean ====
/-
  Per-tile dihedral symmetrization of a [64, 1024, 1024] image cut into 8 × 8 tiles: the kernel against its reference.

  Both programs add to every tile `w` its three mirror images,
      s i j = ((w i j + w i (7 - j)) + w (7 - i) j) + w (7 - i) (7 - j),
  and return `(s + r) / 8` with `r` the quarter turn of `s`.  The reference forms `r i j = s j (7 - i)` by a reverse and
  a transpose of the in-tile axes.  The kernel uses that `s` is itself mirror symmetric, so `s j (7 - i) = s j i`, and
  adds the transpose of `s` instead.  The two are the same four entries added in another order; addition of extended
  reals is commutative and associative, so the results are equal entry by entry, at infinite entries too: the
  precondition is not used for the value (`Proof/Dihedral.lean`).

  The kernel works on the image in phase-major layout (the two in-tile axes first): each grid point stages a block of
  channels and tile rows holding all 64 phases of its tiles, the body's 64 stores tile the staged output block and are
  pieces of one function of the staged input block (`Proof/BlockValue.lean`, `Proof/BlockCanon.lean`), the blocks tile
  the array (`Proof/ArrayValue.lean`), and the host operations around the region only move axes
  (`Proof/KernelRun.lean`).  The reference's run and its value at an index are `Proof/RefRun.lean` and
  `Proof/RefValue.lean`.  Both runs end at the same term of the argument: the tiled argument, symmetrized tile by tile,
  laid back out as the image.

  The three frames: the kernel's two are the generated frame certificates; the reference has no kernel, and its frame is
  its run with the result dropped.  The idealization rewrote no operation, so there is nothing to preserve.
-/
import proofs.«103583_j644245094889_2_alg».proof.Defs
import proofs.«103583_j644245094889_2_alg».proof.Proof.Gen.Kernel
import proofs.«103583_j644245094889_2_alg».proof.Proof.Gen.Kernel.Skeleton
import proofs.«103583_j644245094889_2_alg».proof.Proof.Gen.Kernel.Launch
import proofs.«103583_j644245094889_2_alg».proof.Proof.Gen.Kernel.Points
import proofs.«103583_j644245094889_2_alg».proof.Proof.Gen.Kernel.Frame
import proofs.«103583_j644245094889_2_alg».proof.Proof.Gen.KernelIdeal
import proofs.«103583_j644245094889_2_alg».proof.Proof.Gen.KernelIdeal.Skeleton
import proofs.«103583_j644245094889_2_alg».proof.Proof.Gen.KernelIdeal.Launch
import proofs.«103583_j644245094889_2_alg».proof.Proof.Gen.KernelIdeal.Points
import proofs.«103583_j644245094889_2_alg».proof.Proof.Gen.KernelIdeal.Frame
import proofs.«103583_j644245094889_2_alg».proof.Proof.Gen.ReferenceIdeal
import proofs.«103583_j644245094889_2_alg».proof.Proof.Gen.Pre_finite_inputs
import proofs.«103583_j644245094889_2_alg».proof.Proof.KernelRun
import proofs.«103583_j644245094889_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The idealization rewrote nothing. -/
theorem preserves : Cert.preserves_Kernel_KernelIdeal := trivial

/-- From memories agreeing on the argument both programs end with the tiled argument symmetrized tile by tile and
    laid back out as the image: the same term on both sides once the agreement is rewritten. -/
theorem algebraic : Cert.algebraic_KernelIdeal_ReferenceIdeal := by
  intro m ρ m' ρ' _ hagree
  refine ⟨fun c => Cert.KernelIdeal.KernelRun.untile (Cert.Dihedral.symm (Ideal.ofBits .f32 0x3E000000#32)
      (Cert.KernelIdeal.KernelRun.tiled (m ((c.tc : Thread Cert.KernelIdeal.nD Cert.KernelIdeal.τ).loc Cert.KernelIdeal.main_arg0)))),
    Cert.KernelIdeal.KernelRun.run m ρ, ?_⟩
  refine (θ_run Cert.ReferenceIdeal.defs _ _).mono (fun _ h c => ⟨(h c).1.trans ?_, (h c).2⟩)
    (Cert.ReferenceIdeal.RefValue.run m' ρ')
  rw [hagree c]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
